-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16x16x64 : Shape := ⟨4, ![128, 16, 16, 64]⟩
abbrev S1x1x1x100x64 : Shape := ⟨5, ![1, 1, 1, 100, 64]⟩
abbrev S1x1x1x100 : Shape := ⟨4, ![1, 1, 1, 100]⟩
abbrev S_ : Shape := ⟨0, ![]⟩

class Facts : Prop where
  bcast_S_S128x16x16x64 : S_.BroadcastsInDim S128x16x16x64 (![] : Fin 0 → Fin S128x16x16x64.rank)
  reducesTo_S128x16x16x64_S_d0_1_2_3 : S128x16x16x64.ReducesTo [0, 1, 2, 3] S_
  h_S_ : 0 < S_.numel
  bcast_S_S1x1x1x100x64 : S_.BroadcastsInDim S1x1x1x100x64 (![] : Fin 0 → Fin S1x1x1x100x64.rank)
  reducesTo_S1x1x1x100x64_S_d0_1_2_3_4 : S1x1x1x100x64.ReducesTo [0, 1, 2, 3, 4] S_
  bcast_S_S1x1x1x100 : S_.BroadcastsInDim S1x1x1x100 (![] : Fin 0 → Fin S1x1x1x100.rank)
  reducesTo_S1x1x1x100_S_d0_1_2_3 : S1x1x1x100.ReducesTo [0, 1, 2, 3] S_

variable [Facts]

def fn_part1 {F : FTy → Type} [FloatOps F] (main_v13 : IVec S_ 1) (main_v16 : IVec S1x1x1x100 1) : IVec S_ 1 :=
  let main_c_5 : IVec S_ 1 := constantI S_ 1 1#1
  let main_v17 : IVec S_ 1 := (fun x v => Host.reduce IntOp.andi x v reducesTo_S1x1x1x100_S_d0_1_2_3 h_S_) main_v16 main_c_5
  let main_v18 : IVec S_ 1 := andi main_v13 main_v17
  main_v18

def fn {F : FTy → Type} [FloatOps F] (main_arg0 : FVec F S128x16x16x64 .f32) (main_arg1 : FVec F S1x1x1x100x64 .f32) (main_arg2 : FVec F S1x1x1x100x64 .f32) (main_arg3 : FVec F S1x1x1x100 .f32) : IVec S_ 1 :=
  let main_v0 : FVec F S128x16x16x64 .f32 := Host.absf main_arg0
  let main_cst : FVec F S_ .f32 := constant S_ .f32 0x7F800000#32
  let main_v1 : FVec F S128x16x16x64 .f32 := broadcastInDim S128x16x16x64 ![] bcast_S_S128x16x16x64 main_cst
  let main_v2 : IVec S128x16x16x64 1 := cmpf .olt main_v0 main_v1
  let main_c : IVec S_ 1 := constantI S_ 1 1#1
  let main_v3 : IVec S_ 1 := (fun x v => Host.reduce IntOp.andi x v reducesTo_S128x16x16x64_S_d0_1_2_3 h_S_) main_v2 main_c
  let main_v4 : FVec F S1x1x1x100x64 .f32 := Host.absf main_arg1
  let main_cst_0 : FVec F S_ .f32 := constant S_ .f32 0x7F800000#32
  let main_v5 : FVec F S1x1x1x100x64 .f32 := broadcastInDim S1x1x1x100x64 ![] bcast_S_S1x1x1x100x64 main_cst_0
  let main_v6 : IVec S1x1x1x100x64 1 := cmpf .olt main_v4 main_v5
  let main_c_1 : IVec S_ 1 := constantI S_ 1 1#1
  let main_v7 : IVec S_ 1 := (fun x v => Host.reduce IntOp.andi x v reducesTo_S1x1x1x100x64_S_d0_1_2_3_4 h_S_) main_v6 main_c_1
  let main_v8 : IVec S_ 1 := andi main_v3 main_v7
  let main_v9 : FVec F S1x1x1x100x64 .f32 := Host.absf main_arg2
  let main_cst_2 : FVec F S_ .f32 := constant S_ .f32 0x7F800000#32
  let main_v10 : FVec F S1x1x1x100x64 .f32 := broadcastInDim S1x1x1x100x64 ![] bcast_S_S1x1x1x100x64 main_cst_2
  let main_v11 : IVec S1x1x1x100x64 1 := cmpf .olt main_v9 main_v10
  let main_c_3 : IVec S_ 1 := constantI S_ 1 1#1
  let main_v12 : IVec S_ 1 := (fun x v => Host.reduce IntOp.andi x v reducesTo_S1x1x1x100x64_S_d0_1_2_3_4 h_S_) main_v11 main_c_3
  let main_v13 : IVec S_ 1 := andi main_v8 main_v12
  let main_v14 : FVec F S1x1x1x100 .f32 := Host.absf main_arg3
  let main_cst_4 : FVec F S_ .f32 := constant S_ .f32 0x7F800000#32
  let main_v15 : FVec F S1x1x1x100 .f32 := broadcastInDim S1x1x1x100 ![] bcast_S_S1x1x1x100 main_cst_4
  let main_v16 : IVec S1x1x1x100 1 := cmpf .olt main_v14 main_v15
  fn_part1 (F := F) main_v13 main_v16
-- ==== Kernel.lean ====
abbrev S128x16x16x64 : Shape := ⟨4, ![128, 16, 16, 64]⟩
abbrev S1x1x1x100x64 : Shape := ⟨5, ![1, 1, 1, 100, 64]⟩
abbrev S1x1x1x100 : Shape := ⟨4, ![1, 1, 1, 100]⟩
abbrev S32768x64 : Shape := ⟨2, ![32768, 64]⟩
abbrev S100x64 : Shape := ⟨2, ![100, 64]⟩
abbrev S100 : Shape := ⟨1, ![100]⟩
abbrev S_ : Shape := ⟨0, ![]⟩
abbrev S1 : Shape := ⟨1, ![1]⟩
abbrev S64x100 : Shape := ⟨2, ![64, 100]⟩
abbrev S128x100 : Shape := ⟨2, ![128, 100]⟩
abbrev S1x100 : Shape := ⟨2, ![1, 100]⟩
abbrev S32768x100 : Shape := ⟨2, ![32768, 100]⟩
abbrev S8192x64 : Shape := ⟨2, ![8192, 64]⟩
abbrev S8192x100 : Shape := ⟨2, ![8192, 100]⟩
abbrev S8192x128 : Shape := ⟨2, ![8192, 128]⟩
abbrev S128x16x16x100 : Shape := ⟨4, ![128, 16, 16, 100]⟩

abbrev nBuf : Space → Nat
  | .hbm => 49
  | .vmem => 6
  | .smem => 0
  | _ => 0

abbrev bufTy : (tb : Table) → Fin (tcTables nBuf tb) → BufTy
  | .hbm, ⟨0, _⟩ => ⟨S128x16x16x64, .f32⟩
  | .hbm, ⟨1, _⟩ => ⟨S1x1x1x100x64, .f32⟩
  | .hbm, ⟨2, _⟩ => ⟨S1x1x1x100x64, .f32⟩
  | .hbm, ⟨3, _⟩ => ⟨S1x1x1x100, .f32⟩
  | .hbm, ⟨4, _⟩ => ⟨S32768x64, .f32⟩
  | .hbm, ⟨5, _⟩ => ⟨S100x64, .f32⟩
  | .hbm, ⟨6, _⟩ => ⟨S100x64, .f32⟩
  | .hbm, ⟨7, _⟩ => ⟨S100, .f32⟩
  | .hbm, ⟨8, _⟩ => ⟨S100x64, .f32⟩
  | .hbm, ⟨9, _⟩ => ⟨S100x64, .f32⟩
  | .hbm, ⟨10, _⟩ => ⟨S100x64, .f32⟩
  | .hbm, ⟨11, _⟩ => ⟨S100x64, .f32⟩
  | .hbm, ⟨12, _⟩ => ⟨S_, .f32⟩
  | .hbm, ⟨13, _⟩ => ⟨S100, .f32⟩
  | .hbm, ⟨14, _⟩ => ⟨S100x64, .f32⟩
  | .hbm, ⟨15, _⟩ => ⟨S_, .f32⟩
  | .hbm, ⟨16, _⟩ => ⟨S100, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S100, .f32⟩
  | .hbm, ⟨23, _⟩ => ⟨S100, .f32⟩
  | .hbm, ⟨24, _⟩ => ⟨S100, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S100, .f32⟩
  | .hbm, ⟨30, _⟩ => ⟨S100, .f32⟩
  | .hbm, ⟨31, _⟩ => ⟨S_, .f32⟩
  | .hbm, ⟨32, _⟩ => ⟨S100, .f32⟩
  | .hbm, ⟨33, _⟩ => ⟨S100, .f32⟩
  | .hbm, ⟨34, _⟩ => ⟨S100, .f32⟩
  | .hbm, ⟨35, _⟩ => ⟨S_, .f32⟩
  | .hbm, ⟨36, _⟩ => ⟨S100, .f32⟩
  | .hbm, ⟨37, _⟩ => ⟨S100, .f32⟩
  | .hbm, ⟨38, _⟩ => ⟨S100, .f32⟩
  | .hbm, ⟨39, _⟩ => ⟨S_, .f32⟩
  | .hbm, ⟨40, _⟩ => ⟨S100x64, .f32⟩
  | .hbm, ⟨41, _⟩ => ⟨S100x64, .f32⟩
  | .hbm, ⟨42, _⟩ => ⟨S64x100, .f32⟩
  | .hbm, ⟨43, _⟩ => ⟨S64x100, .f32⟩
  | .hbm, ⟨44, _⟩ => ⟨S128x100, .f32⟩
  | .hbm, ⟨45, _⟩ => ⟨S128x100, .bf16⟩
  | .hbm, ⟨46, _⟩ => ⟨S1x100, .f32⟩
  | .hbm, ⟨47, _⟩ => ⟨S32768x100, .f32⟩
  | .hbm, ⟨48, _⟩ => ⟨S128x16x16x100, .f32⟩
  | .local _ .vmem, ⟨0, _⟩ => ⟨S8192x64, .f32⟩
  | .local _ .vmem, ⟨1, _⟩ => ⟨S8192x64, .f32⟩
  | .local _ .vmem, ⟨2, _⟩ => ⟨S128x100, .bf16⟩
  | .local _ .vmem, ⟨3, _⟩ => ⟨S1x100, .f32⟩
  | .local _ .vmem, ⟨4, _⟩ => ⟨S8192x100, .f32⟩
  | .local _ .vmem, ⟨5, _⟩ => ⟨S8192x100, .f32⟩
  | _, _ => ⟨S128x16x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x16x16x64_S32768x64 : S128x16x16x64.ShapeCasts S32768x64
  shapeCasts_S1x1x1x100x64_S100x64 : S1x1x1x100x64.ShapeCasts S100x64
  shapeCasts_S1x1x1x100_S100 : S1x1x1x100.ShapeCasts S100
  reducesTo_S100x64_S100_d1 : S100x64.ReducesTo [1] S100
  h_S_ : 0 < S_.numel
  reducesTo_S100_S_d0 : S100.ReducesTo [0] S_
  bcast_S_S1 : S_.BroadcastsInDim S1 (![] : Fin 0 → Fin S1.rank)
  bcast_S1_S100_0 : S1.BroadcastsInDim S100 (![0] : Fin 1 → Fin S100.rank)
  bcast_S_S100 : S_.BroadcastsInDim S100 (![] : Fin 0 → Fin S100.rank)
  bcast_S_S100x64 : S_.BroadcastsInDim S100x64 (![] : Fin 0 → Fin S100x64.rank)
  transposes_S100x64_S64x100_1_0 : S100x64.Transposes [1, 0] S64x100
  concatenates_S64x100_S64x100_S128x100_d0 : Shape.Concatenates [S64x100, S64x100] S128x100 0
  bitsLt_bf16_f32 : FTy.bits .bf16 < FTy.bits .f32
  shapeCasts_S100_S1x100 : S100.ShapeCasts S1x100
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  concatenates_S8192x64_S8192x64_S8192x128_d1 : Shape.Concatenates [S8192x64, S8192x64] S8192x128 1
  inb_S128x100_S128x100_0_0 : ∀ a, (![0, 0] : Fin 2 → Nat) a + S128x100.size a ≤ S128x100.size a
  h_S128x100 : 0 < S128x100.numel
  shapeCasts_S128x100_S128x100 : S128x100.ShapeCasts S128x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S8192x100 : S1x100.Broadcasts S8192x100
  inb_S8192x100_S8192x100_0_0 : ∀ a, (![0, 0] : Fin 2 → Nat) a + S8192x100.size a ≤ S8192x100.size a
  h_S8192x100 : 0 < S8192x100.numel
  shapeCasts_S32768x100_S128x16x16x100 : S32768x100.ShapeCasts S128x16x16x100
  dot_S8192x128_S128x100_S8192x100_1_0_0_1_n_n_wf : DotDims.WF S8192x128 S128x100 S8192x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S32768x64.size a
  hwx0_0 : ∀ i : grid0.Coords, EltTy.bits .f32 = 32 ∨ (Rect.block (s := S32768x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x100.size a ≤ S128x100.size a
  hwx0_1 : ∀ i : grid0.Coords, EltTy.bits .bf16 = 32 ∨ (Rect.block (s := S128x100) S128x100.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x100.size a ≤ S1x100.size a
  hwx0_2 : ∀ i : grid0.Coords, EltTy.bits .f32 = 32 ∨ (Rect.block (s := S1x100) S1x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x100.size a ≤ S32768x100.size a
  hwx0_3 : ∀ i : grid0.Coords, EltTy.bits .f32 = 32 ∨ (Rect.block (s := S32768x100) S8192x100.size (cc0_transform_3 i) (hinb0_3 i)).WholeWords (EltTy.packing .f32)

variable [Facts₀]

def dot_S8192x128_S128x100_S8192x100_1_0_0_1_n_n : DotDims S8192x128 S128x100 S8192x100 where
  lhsContracting := [1]
  rhsContracting := [0]
  lhsNonContracting := [0]
  rhsNonContracting := [1]
  lhsBatch := []
  rhsBatch := []
  wf := dot_S8192x128_S128x100_S8192x100_1_0_0_1_n_n_wf

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S128x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S8192x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x16x16x64 : Shape := ⟨4, ![128, 16, 16, 64]⟩
abbrev S1x1x1x100x64 : Shape := ⟨5, ![1, 1, 1, 100, 64]⟩
abbrev S1x1x1x100 : Shape := ⟨4, ![1, 1, 1, 100]⟩
abbrev S_ : Shape := ⟨0, ![]⟩
abbrev S1x1x1 : Shape := ⟨3, ![1, 1, 1]⟩
abbrev S1x1x1x1 : Shape := ⟨4, ![1, 1, 1, 1]⟩
abbrev S128x16x16x1x64 : Shape := ⟨5, ![128, 16, 16, 1, 64]⟩
abbrev S128x16x16x100x64 : Shape := ⟨5, ![128, 16, 16, 100, 64]⟩
abbrev S128x16x16x100 : Shape := ⟨4, ![128, 16, 16, 100]⟩

abbrev nBuf : Space → Nat
  | .hbm => 42
  | .vmem => 0
  | .smem => 0
  | _ => 0

abbrev bufTy : (tb : Table) → Fin (tcTables nBuf tb) → BufTy
  | .hbm, ⟨0, _⟩ => ⟨S128x16x16x64, .f32⟩
  | .hbm, ⟨1, _⟩ => ⟨S1x1x1x100x64, .f32⟩
  | .hbm, ⟨2, _⟩ => ⟨S1x1x1x100x64, .f32⟩
  | .hbm, ⟨3, _⟩ => ⟨S1x1x1x100, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S1x1x1x1, .f32⟩
  | .hbm, ⟨10, _⟩ => ⟨S1x1x1x100, .f32⟩
  | .hbm, ⟨11, _⟩ => ⟨S1x1x1x100, .f32⟩
  | .hbm, ⟨12, _⟩ => ⟨S1x1x1x100, .f32⟩
  | .hbm, ⟨13, _⟩ => ⟨S_, .f32⟩
  | .hbm, ⟨14, _⟩ => ⟨S1x1x1, .f32⟩
  | .hbm, ⟨15, _⟩ => ⟨S1x1x1x1, .f32⟩
  | .hbm, ⟨16, _⟩ => ⟨S1x1x1x1, .f32⟩
  | .hbm, ⟨17, _⟩ => ⟨S1x1x1x100, .f32⟩
  | .hbm, ⟨18, _⟩ => ⟨S1x1x1x100, .f32⟩
  | .hbm, ⟨19, _⟩ => ⟨S128x16x16x1x64, .f32⟩
  | .hbm, ⟨20, _⟩ => ⟨S128x16x16x100x64, .f32⟩
  | .hbm, ⟨21, _⟩ => ⟨S128x16x16x100x64, .f32⟩
  | .hbm, ⟨22, _⟩ => ⟨S128x16x16x100x64, .f32⟩
  | .hbm, ⟨23, _⟩ => ⟨S128x16x16x100x64, .f32⟩
  | .hbm, ⟨24, _⟩ => ⟨S1x1x1x100x64, .f32⟩
  | .hbm, ⟨25, _⟩ => ⟨S128x16x16x100x64, .f32⟩
  | .hbm, ⟨26, _⟩ => ⟨S128x16x16x100x64, .f32⟩
  | .hbm, ⟨27, _⟩ => ⟨S_, .f32⟩
  | .hbm, ⟨28, _⟩ => ⟨S128x16x16x100, .f32⟩
  | .hbm, ⟨29, _⟩ => ⟨S_, .f32⟩
  | .hbm, ⟨30, _⟩ => ⟨S128x16x16x100, .f32⟩
  | .hbm, ⟨31, _⟩ => ⟨S128x16x16x100, .f32⟩
  | .hbm, ⟨32, _⟩ => ⟨S1x1x1x100x64, .f32⟩
  | .hbm, ⟨33, _⟩ => ⟨S_, .f32⟩
  | .hbm, ⟨34, _⟩ => ⟨S1x1x1x100, .f32⟩
  | .hbm, ⟨35, _⟩ => ⟨S_, .f32⟩
  | .hbm, ⟨36, _⟩ => ⟨S1x1x1x100, .f32⟩
  | .hbm, ⟨37, _⟩ => ⟨S1x1x1x100, .f32⟩
  | .hbm, ⟨38, _⟩ => ⟨S128x16x16x100, .f32⟩
  | .hbm, ⟨39, _⟩ => ⟨S128x16x16x100, .f32⟩
  | .hbm, ⟨40, _⟩ => ⟨S128x16x16x100, .f32⟩
  | .hbm, ⟨41, _⟩ => ⟨S128x16x16x100, .f32⟩
  | _, _ => ⟨S128x16x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩

abbrev nD : Nat := 1
abbrev τ : Topo := Topo.v7x

variable {F : FTy → Type} [FloatOps F]

class Facts₀ : Prop where
  reducesTo_S1x1x1x100_S1x1x1_d3 : S1x1x1x100.ReducesTo [3] S1x1x1
  h_S_ : 0 < S_.numel
  bcast_S_S1x1x1 : S_.BroadcastsInDim S1x1x1 (![] : Fin 0 → Fin S1x1x1.rank)
  bcast_S1x1x1_S1x1x1x1_0_1_2 : S1x1x1.BroadcastsInDim S1x1x1x1 (![0, 1, 2] : Fin 3 → Fin S1x1x1x1.rank)
  bcast_S1x1x1x1_S1x1x1x100_0_1_2_3 : S1x1x1x1.BroadcastsInDim S1x1x1x100 (![0, 1, 2, 3] : Fin 4 → Fin S1x1x1x100.rank)
  bcast_S128x16x16x64_S128x16x16x1x64_0_1_2_4 : S128x16x16x64.BroadcastsInDim S128x16x16x1x64 (![0, 1, 2, 4] : Fin 4 → Fin S128x16x16x1x64.rank)
  bcast_S128x16x16x1x64_S128x16x16x100x64_0_1_2_3_4 : S128x16x16x1x64.BroadcastsInDim S128x16x16x100x64 (![0, 1, 2, 3, 4] : Fin 5 → Fin S128x16x16x100x64.rank)
  bcast_S1x1x1x100x64_S128x16x16x100x64_0_1_2_3_4 : S1x1x1x100x64.BroadcastsInDim S128x16x16x100x64 (![0, 1, 2, 3, 4] : Fin 5 → Fin S128x16x16x100x64.rank)
  reducesTo_S128x16x16x100x64_S128x16x16x100_d4 : S128x16x16x100x64.ReducesTo [4] S128x16x16x100
  bcast_S_S128x16x16x100 : S_.BroadcastsInDim S128x16x16x100 (![] : Fin 0 → Fin S128x16x16x100.rank)
  reducesTo_S1x1x1x100x64_S1x1x1x100_d4 : S1x1x1x100x64.ReducesTo [4] S1x1x1x100
  bcast_S_S1x1x1x100 : S_.BroadcastsInDim S1x1x1x100 (![] : Fin 0 → Fin S1x1x1x100.rank)
  bcast_S1x1x1x100_S128x16x16x100_0_1_2_3 : S1x1x1x100.BroadcastsInDim S128x16x16x100 (![0, 1, 2, 3] : Fin 4 → Fin S128x16x16x100.rank)

variable [Facts₀]

class Facts : Prop extends Facts₀ where

variable [Facts]
-- ==== Proof.FiniteInputs.lean ====
/-
  From the precondition to the inputs' values. The precondition `finite_inputs` computes, for each of the four
  input arrays, `all (|x| < +∞)` and takes the conjunction of the four. On the extended reals `|x| = max x (-x)`
  is `⊤` exactly at `x = ⊤` and `x = ⊥`, so `|x| < ⊤` says that `x` is a real number. Hence: where the
  precondition's value is 1, every entry of every input is (the coercion of) a real number.
-/
import proofs.«102146_j29996051595916_2_alg».proof.Pre_finite_inputs
import Idealize.ShloMosaic.PureOps.Ideal
import Idealize.ShloMosaic.Lib.Affine
import Idealize.ShloMosaic.Lib.ReduceAll
import Idealize.ShloMosaic.Lib.ValueIdx

namespace Cert.Finite

open Idealize.ShloMosaic Cert.Pre_finite_inputs

/-- An extended real whose absolute value `max x (-x)` is below `⊤` is a real number: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The f32 word `0x7F800000` (sign 0, exponent all ones, fraction 0) denotes `+∞`. -/
theorem ofBits_inf : Ideal.ofBits .f32 0x7F800000#32 = (⊤ : EReal) := by
  simp [Ideal.ofBits, Ideal.ieee]

/-- One value: the comparison `|x| < +∞` answering 1 says that `x` is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  refine real_of_abs_lt_top x ?_
  by_contra hn
  simp [Ideal.cmp, hn] at h

/-- The scalar shape has one index. -/
instance : Subsingleton S_.Idx := ⟨fun a b => funext fun d => d.elim0⟩

/-- One array, of any shape `s`: `all (|x| < +∞)`, printed as the reduction by `and` over all axes of the
    comparison of `|x|` with the broadcast `+∞` word, being 1 says that every entry of `x` is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := fun i =>
  real_of_cmp (x i) (Host.reduce_andi_all _ _ hr hu ValueIdx.ix0 e i)

variable [Cert.Pre_finite_inputs.Facts]

/-- Where the precondition `finite_inputs` holds (its value is 1), every entry of each of the four inputs is a
    real number. -/
theorem real_of_finite (x0 : FVec Ideal S128x16x16x64 .f32) (x1 x2 : FVec Ideal S1x1x1x100x64 .f32)
    (x3 : FVec Ideal S1x1x1x100 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
      (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨real_of_all x0 _ _ _ e0, real_of_all x1 _ _ _ e1, real_of_all x2 _ _ _ e2, real_of_all x3 _ _ _ e3⟩

end Cert.Finite
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.Spec.lean ====
/-
  The algebra behind the certificate, on the real line and on the extended reals.

  A diagonal Gaussian mixture score of a row `x` against component `k` is, up to terms that do not depend on `x`,
  `-1/2 · Σ_c (x_c - μ_c)² σ_c²`.  Expanding the square under the sum,
      -1/2 Σ (x-μ)² σ²  =  -(1/2 Σ μ² σ²) + ( Σ x² (-1/2 σ²) + Σ x (μ σ²) ),
  which is what lets the two sums that depend on `x` be one contraction of the row `[x², x]` with the stacked
  weights `[-1/2 σ² ; μ σ²]`, while `-1/2 Σ μ² σ²` joins the per-component bias.  The expansion uses
  distributivity, so it is an identity of REAL numbers; on the extended reals it is used only where every factor is
  real.  The remaining summands of the score (the normalising constant, `Σ log σ`, the log mixture weight) are only
  ever ADDED, and addition of extended reals is commutative and associative whatever is infinite: they are carried as
  arbitrary extended reals `A` and `P`.
-/
import Idealize.ShloMosaic.PureOps.Ideal.Laws

noncomputable section

namespace Cert.GmmSpec

open Idealize.ShloMosaic

variable {ι : Type} [Fintype ι]

/-- A finite sum of reals, read as an extended real, is the sum of the summands read as extended reals. -/
theorem coe_sum (f : ι → ℝ) : ((∑ c, f c : ℝ) : EReal) = ∑ c, (f c : EReal) := by
  classical
  induction (Finset.univ : Finset ι) using Finset.induction_on with
  | empty => simp
  | insert a S ha ih => rw [Finset.sum_insert ha, Finset.sum_insert ha, EReal.coe_add, ih]

/-- The expansion of the square under the sum, on the real line. -/
theorem expand_real (x μ s : ι → ℝ) :
    (-1 / 2 : ℝ) * (∑ c, ((x c - μ c) * (x c - μ c)) * (s c * s c))
      = -((1 / 2 : ℝ) * (∑ c, (μ c * μ c) * (s c * s c)))
        + ((∑ c, (x c * x c) * ((-1 / 2 : ℝ) * (s c * s c))) + ∑ c, x c * (μ c * (s c * s c))) := by
  rw [Finset.mul_sum, Finset.mul_sum, ← Finset.sum_neg_distrib, ← Finset.sum_add_distrib, ← Finset.sum_add_distrib]
  exact Finset.sum_congr rfl fun c _ => by ring

/-- On the extended reals: with the part that does not depend on the row (`A`, possibly infinite), the log mixture
    weight (`P`, possibly infinite) and three real numbers related by `c = -a + b`, the kernel's grouping
    `((A + P) - a) + b` is the reference's `(A + c) + P`. -/
theorem regroup (A P : EReal) (a b c : ℝ) (h : c = -a + b) :
    ((A + P) - (a : EReal)) + (b : EReal) = (A + (c : EReal)) + P := by
  subst h
  rw [sub_eq_add_neg, ← EReal.coe_neg, EReal.coe_add]
  simp only [add_assoc, add_comm, add_left_comm]

/-- Position `c` of the first half of an axis of 128. -/
def lo (c : Fin 64) : Fin 128 := ⟨c.val, by omega⟩

/-- Position `c` of its second half. -/
def hi (c : Fin 64) : Fin 128 := ⟨c.val + 64, by omega⟩

/-- A sum over an axis of 128 is the sum over its first 64 positions plus the sum over its last 64: the contraction
    of the stacked row `[x², x]` with the stacked weights is the sum of the two contractions. -/
theorem sum_halves {M : Type} [AddCommMonoid M] (f : Fin 128 → M) :
    ∑ j, f j = (∑ c : Fin 64, f (lo c)) + ∑ c : Fin 64, f (hi c) := by
  refine (Fin.sum_univ_add (a := 64) (b := 64) f).trans ?_
  congr 1

/-- The zero word is the number zero. -/
theorem zero_word : Ideal.ofBits .f32 0x00000000#32 = (0 : EReal) := Ideal.ofBits_zero_f32

/-- The word `0x3F000000` is one half. -/
theorem half_word : Ideal.ofBits .f32 0x3F000000#32 = ((1 / 2 : ℝ) : EReal) := by
  simp [Ideal.ofBits, Ideal.ieee, -EReal.coe_mul]; norm_num

/-- The word `0xBF000000` is minus one half. -/
theorem neg_half_word : Ideal.ofBits .f32 0xBF000000#32 = ((-1 / 2 : ℝ) : EReal) := by
  simp [Ideal.ofBits, Ideal.ieee, -EReal.coe_mul]; norm_num

end Cert.GmmSpec

end
-- ==== Proof.Payload.lean ====
/-
  The kernel body's arithmetic, read at one entry.

  The body loads a block of 8192 rows `x0`, the stacked weights `x1 : [128, 100]` and the bias row `x2 : [1, 100]`,
  forms the row `[x0², x0]` of length 128 by concatenating the squares and the values, contracts it with the weights
  and adds the bias.  At row `r` and component `k` the stored value is therefore
      x2(0,k) + ( Σ_c x0(r,c)² · x1(c,k)  +  Σ_c x0(r,c) · x1(64+c,k) ),
  the contraction over 128 positions being the sum of the contractions over its two halves.  A change of float
  format is the identity on extended reals, so the conversions to the narrower format do nothing here.
-/
import proofs.«102146_j29996051595916_2_alg».proof.Proof.Gen.KernelIdeal.Skeleton
import proofs.«102146_j29996051595916_2_alg».proof.Proof.LibMatmulNN
import proofs.«102146_j29996051595916_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.GmmSpec

/-- The stacked row `[a, b]` at a position of its first half is `a` there. -/
theorem stacked_lo (a b : FVec Ideal S8192x64 .bf16) (r : Fin 8192) (cc : Fin 64) :
    concatenate S8192x128 1 [⟨S8192x64, a⟩, ⟨S8192x64, b⟩] concatenates_S8192x64_S8192x64_S8192x128_d1 (ix2 r (lo cc))
      = a (ix2 r cc) :=
  concatenate_pair_apply_left (1 : Fin 2) a b concatenates_S8192x64_S8192x64_S8192x128_d1 (ix2 r (lo cc)) rfl (ix2 r cc)
    (fun q => match q with | ⟨0, _⟩ => rfl | ⟨1, _⟩ => rfl)

/-- At a position of its second half it is `b` there. -/
theorem stacked_hi (a b : FVec Ideal S8192x64 .bf16) (r : Fin 8192) (cc : Fin 64) :
    concatenate S8192x128 1 [⟨S8192x64, a⟩, ⟨S8192x64, b⟩] concatenates_S8192x64_S8192x64_S8192x128_d1 (ix2 r (hi cc))
      = b (ix2 r cc) :=
  concatenate_pair_apply_right (1 : Fin 2) a b concatenates_S8192x64_S8192x64_S8192x128_d1 (ix2 r (hi cc)) rfl rfl (ix2 r cc)
    (fun q hq => match q, hq with
      | ⟨0, _⟩, _ => rfl
      | ⟨1, _⟩, hq => absurd (Fin.ext rfl) hq)
    rfl

/-- The stored value at row `r`, component `k`. -/
theorem pay_apply (x0 : Vec Ideal S8192x64 .f32) (x1 : Vec Ideal S128x100 .bf16) (x2 : Vec Ideal S1x100 .f32)
    (r : Fin 8192) (k : Fin 100) :
    k0_pay1 (F := Ideal) x0 x1 x2 (ix2 r k)
      = x2 (ix2 (0 : Fin 1) k)
        + ((∑ cc : Fin 64, (x0 (ix2 r cc) * x0 (ix2 r cc)) * x1 (ix2 (lo cc) k))
           + ∑ cc : Fin 64, x0 (ix2 r cc) * x1 (ix2 (hi cc) k)) := by
  unfold k0_pay1
  rw [addf_apply, broadcastTo_1b_ab_apply, shapeCast_self, shapeCast_self, shapeCast_self]
  rw [Cert.LibMatmulNN.matmul_zero_apply' _ rfl rfl rfl rfl rfl rfl, sum_halves]
  congr 1
  congr 1
  · refine Finset.sum_congr rfl fun cc _ => ?_
    rw [stacked_lo]
    rfl
  · refine Finset.sum_congr rfl fun cc _ => ?_
    rw [stacked_hi]
    rfl

end Cert.KernelIdeal.Body

end
-- ==== Proof.KernelArray.lean ====
/-
  From what each grid point writes back to the whole score array, and on to the program's result.

  The grid has four points; point `t` handles rows `8192 t … 8192 t + 8191` of the flattened activations and writes
  the same rows of the `[32768, 100]` score array, while the stacked weights and the bias row are the same whole
  arrays at every point.  What a point writes is the body's stored value, whose entry `(r, k)` depends on row `r` of
  its activation block only; so every point's block is the restriction of ONE function of the three staged arrays,
      scoreRows X W B (n, k) = B(0,k) + ( Σ_c X(n,c)² · W(c,k) + Σ_c X(n,c) · W(64+c,k) ),
  and since the four blocks tile the array, the array after the launch is that function.  The one host operation after
  the launch reshapes `[32768, 100]` to `[128, 16, 16, 100]`.
-/
import proofs.«102146_j29996051595916_2_alg».proof.Proof.Gen.KernelIdeal.Frame
import proofs.«102146_j29996051595916_2_alg».proof.Proof.Payload
import Idealize.ShloMosaic.Lib.Pipeline.Value
import Idealize.ShloMosaic.Lib.StableHlo.Run

set_option maxRecDepth 16384

noncomputable section

open scoped BigOperators

namespace Cert.KernelIdeal.Scores

open Cert.KernelIdeal Cert.KernelIdeal.Gen Idealize.ShloMosaic Idealize.ShloMosaic.TcCoe Idealize.ShloMosaic.ValueIdx
open Idealize.SL.Sem Idealize.ShloMosaic.StableHlo Cert.GmmSpec Cert.KernelIdeal.Body
open Idealize.ShloMosaic.Pipeline (Dat)

/-- The score array as one function of the flattened activations, the stacked weights and the bias row. -/
def scoreRows (X : S32768x64.Idx → EReal) (Wt : S128x100.Idx → EReal) (B : S1x100.Idx → EReal) : S32768x100.Idx → EReal :=
  fun i => B (ix2 (0 : Fin 1) (i 1))
    + ((∑ cc : Fin 64, (X (ix2 (i 0) cc) * X (ix2 (i 0) cc)) * Wt (ix2 (lo cc) (i 1)))
       + ∑ cc : Fin 64, X (ix2 (i 0) cc) * Wt (ix2 (hi cc) (i 1)))

/-- A block's stored value is the score function at the array index of each of its entries, as soon as the block's
    loads agree with the arrays along that entry's row and column. -/
theorem block_entry (X : S32768x64.Idx → EReal) (Wt : S128x100.Idx → EReal) (B : S1x100.Idx → EReal)
    (x0 : Vec Ideal S8192x64 .f32) (x1 : Vec Ideal S128x100 .bf16) (x2 : Vec Ideal S1x100 .f32)
    (j : S8192x100.Idx) (i : S32768x100.Idx)
    (h0 : ∀ cc : Fin 64, x0 (ix2 (j 0) cc) = X (ix2 (i 0) cc))
    (h1 : ∀ q : Fin 128, x1 (ix2 q (j 1)) = Wt (ix2 q (i 1)))
    (h2 : x2 (ix2 (0 : Fin 1) (j 1)) = B (ix2 (0 : Fin 1) (i 1))) :
    k0_pay1 (F := Ideal) x0 x1 x2 j = scoreRows X Wt B i := by
  refine ((congrArg (k0_pay1 (F := Ideal) x0 x1 x2) (eq_ix2 j)).trans (pay_apply x0 x1 x2 (j 0) (j 1))).trans ?_
  unfold scoreRows
  simp only [h0, h1, h2]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the activations' block moves with the output's, on the row axis, and is
    point `t`'s; the weights and the bias are always block zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 3 ∧ win0_3.index t (1 : Fin 2) = 0 :=
  (by decide +kernel : ∀ t : Fin grid0.N, _)

/-- Every block of rows is some point's. -/
theorem idx_onto : ∀ q : Fin 4, ∃ t : Fin cfg0.N, win0_3.index t = ![q.val, 0] :=
  (by decide +kernel : ∀ q : Fin 4, ∃ t : Fin grid0.N, win0_3.index t = ![q.val, 0])

/-- What point `t` writes back is block `t` of the score function of the three staged arrays. -/
theorem flushed_eq (c : Dev nD) (t : Fin cfg0.N) :
    (dats m 0 c).flushed 3 t
      = ((cfg0.win 3).blk t).view.read (Elt Ideal) (scoreRows (V m c main_v0) (V m c main_v23) (V m c main_v24)) := by
  show (cfg0.win 3).cut (grid0.coords t) ((dats m 0 c).after 3 t) = _
  rw [after0_3]
  unfold out0_3
  rw [View.canon_unit_zero hz]
  simp only [View.ld_unit_zero (S := S8192x64) hz, View.ld_unit_zero (S := S128x100) hz, View.ld_unit_zero (S := S1x100) hz]
  obtain ⟨e0, e1, e2, e3, e4, e5, e6, e7⟩ := idx_facts t
  funext j
  refine block_entry (V m c main_v0) (V m c main_v23) (V m c main_v24) (iblk m c 0 t) (iblk m c 1 t) (iblk m c 2 t) j
    (((cfg0.win 3).blk t).view.emb j) (fun cc => ?_) (fun q => ?_) ?_
  · show V m c main_v0 (((cfg0.win 0).blk t).view.emb (ix2 (j 0) cc)) = V m c main_v0 (ix2 ((((cfg0.win 3).blk t).view.emb j) 0) cc)
    refine congrArg (V m c main_v0) (funext fun a => Fin.ext ?_)
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 64 + 1 * cc.val = cc.val; omega
  · show V m c main_v23 (((cfg0.win 1).blk t).view.emb (ix2 q (j 1))) = V m c main_v23 (ix2 q ((((cfg0.win 3).blk t).view.emb j) 1))
    refine congrArg (V m c main_v23) (funext fun a => Fin.ext ?_)
    match a with
    | ⟨0, _⟩ => show win0_1.index t (0 : Fin 2) * 128 + 1 * q.val = q.val; omega
    | ⟨1, _⟩ => show win0_1.index t (1 : Fin 2) * 100 + 1 * (j 1).val = win0_3.index t (1 : Fin 2) * 100 + 1 * (j 1).val; omega
  · show V m c main_v24 (((cfg0.win 2).blk t).view.emb (ix2 (0 : Fin 1) (j 1))) = V m c main_v24 (ix2 (0 : Fin 1) ((((cfg0.win 3).blk t).view.emb j) 1))
    refine congrArg (V m c main_v24) (funext fun a => Fin.ext ?_)
    match a with
    | ⟨0, _⟩ => show win0_2.index t (0 : Fin 2) * 1 + 1 * 0 = 0; omega
    | ⟨1, _⟩ => show win0_2.index t (1 : Fin 2) * 100 + 1 * (j 1).val = win0_3.index t (1 : Fin 2) * 100 + 1 * (j 1).val; omega

/-- An index of the score array is in point `t`'s block iff each coordinate is in the block's range on its axis. -/
theorem mem_blk (t : Fin cfg0.N) (i : S32768x100.Idx) :
    i ∈ ((cfg0.win 3).blk t).view.set
      ↔ ∀ a : Fin 2, win0_3.index t a * S8192x100.size a ≤ (i a).val ∧ (i a).val < win0_3.index t a * S8192x100.size a + S8192x100.size a := by
  show i ∈ ((View.whole main_v25).slice (win0_3.rect t)).set ↔ _
  rw [View.set_slice_whole, Rect.mem_set_unit]
  exact Iff.rfl

/-- The four blocks of rows tile the score array: the point that covers row `n` is `n / 8192`. -/
theorem covered (i : S32768x100.Idx) :
    ∃ t : Fin cfg0.N, (cfg0.win 3).flush t = true ∧ i ∈ ((cfg0.win 3).blk t).view.set := by
  have hi0 : (i 0).val < 32768 := (i 0).isLt
  have hi1 : (i 1).val < 100 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 100 ≤ (i 1).val ∧ (i 1).val < win0_3.index t (1 : Fin 2) * 100 + 100; omega

/-- The score array after the launch. -/
theorem final (c : Dev nD) :
    (dats m 0 c).arrAt 3 cfg0.N = scoreRows (V m c main_v0) (V m c main_v23) (V m c main_v24) :=
  (dats m 0 c).arrAt_eq_of_cover 3 (scoreRows (V m c main_v0) (V m c main_v23) (V m c main_v24))
    (fun t _ => flushed_eq m c t) covered

end Cert.KernelIdeal.Scores

end
-- ==== Proof.LogSoftmax.lean ====
/-
  The log-softmax of one hundred extended reals, as ONE function of the hundred entries, and the two programs' readings
  onto it.

  For entries p₀ … p₉₉ let
    m   = max (-∞) (max over j of pⱼ, folded from -∞),
    sⱼ  = pⱼ - m,
    lsm p k = sₖ - log (0 + ∑ⱼ exp sⱼ).
  Here -∞ is the value the 32-bit word 0xFF800000 denotes and 0 the value the all-zero word denotes; both words are kept
  as written, so that a program which spells these constants reads onto this function without evaluating them. The
  maximum, the difference, the exponential and the logarithm are the extended reals' (the ideal float instance's), so
  the function is the textbook log-softmax in the shifted form that both programs compute.

  The reference computes it on an array of shape [1, 1, 1, 100], reducing over the last axis and broadcasting the
  maximum and the logarithm of the sum back through shapes [1, 1, 1] and [1, 1, 1, 1]; the other program computes it
  on a vector of shape [100], reducing to a scalar and broadcasting back through shape [1]. Read at an index, each is
  `lsm` of the hundred entries at that index's coordinate on the axis of length 100.
-/
import proofs.«102146_j29996051595916_2_alg».proof.Proof.Gen.ReferenceIdeal.Read
import proofs.«102146_j29996051595916_2_alg».proof.Proof.Gen.KernelIdeal
import Idealize.ShloMosaic.Lib.ValueIdx
import Idealize.ShloMosaic.Lib.Pipeline.Value
import Idealize.ShloMosaic.PureOps.Reduce
import Idealize.ShloMosaic.PureOps.Ideal.Laws

noncomputable section

open scoped BigOperators

/-! ## The common function -/

namespace Cert.LogSoftmax

open Idealize.ShloMosaic

/-- The shift: the maximum of -∞ and the fold of `max` from -∞ over the hundred entries, -∞ being the value of the word
    0xFF800000 (left unevaluated). It is the largest entry. -/
def lsmMax (p : Fin 100 → EReal) : EReal :=
  FloatOps.maximumf (F := Ideal) (φ := .f32) (Ideal.ofBits .f32 0xFF800000#32)
    ((Finset.univ : Finset (Fin 100)).fold (FloatOps.maximumf (F := Ideal) (φ := .f32)) (Ideal.ofBits .f32 0xFF800000#32) p)

/-- The shifted entry `pⱼ - m`, with `m` the shift `lsmMax p`. -/
def lsmShift (p : Fin 100 → EReal) (j : Fin 100) : EReal :=
  FloatOps.subf (F := Ideal) (φ := .f32) (p j) (lsmMax p)

/-- The log-softmax of the hundred entries at `k`: `(pₖ - m) - log (0 + ∑ⱼ exp (pⱼ - m))`, the `0` being the value of
    the all-zero 32-bit word (left unevaluated). -/
def lsm (p : Fin 100 → EReal) (k : Fin 100) : EReal :=
  FloatOps.subf (F := Ideal) (φ := .f32) (lsmShift p k)
    (FloatOps.hostUnary (F := Ideal) (φ := .f32) .log
      (Ideal.ofBits .f32 0x00000000#32 + ∑ j : Fin 100, FloatOps.hostUnary (F := Ideal) (φ := .f32) .exp (lsmShift p j)))

end Cert.LogSoftmax

/-! ## The reference, on shape [1, 1, 1, 100] -/

namespace Cert.LogSoftmax.Ref

open Cert.ReferenceIdeal Cert.ReferenceIdeal.Gen Cert.ReferenceIdeal.Read Idealize.ShloMosaic Idealize.ShloMosaic.ValueIdx

/-- An index of shape [1, 1, 1, 100] is (0, 0, 0, its last coordinate): the three leading axes have one element. -/
theorem idx_eq (i : S1x1x1x100.Idx) : i = ix4 (0 : Fin 1) (0 : Fin 1) (0 : Fin 1) (i 3) := by
  funext a
  match a with
  | ⟨0, _⟩ => exact Fin.ext (Nat.lt_one_iff.mp (i 0).isLt)
  | ⟨1, _⟩ => exact Fin.ext (Nat.lt_one_iff.mp (i 1).isLt)
  | ⟨2, _⟩ => exact Fin.ext (Nat.lt_one_iff.mp (i 2).isLt)
  | ⟨3, _⟩ => rfl

/-- The reduce-maximum over the last axis, then the maximum with -∞: at the one index of shape [1, 1, 1] it is the
    shift of the hundred entries. -/
theorem max_apply (x3 : (⟨S1x1x1x100, .f32⟩ : BufTy).Contents (Elt Ideal)) (j : S1x1x1.Idx) :
    val_main_call0_v2 (F := Ideal) x3 j = lsmMax (fun k => x3 (ix4 (0 : Fin 1) (0 : Fin 1) (0 : Fin 1) k)) := by
  have h : S1x1x1x100.Reduces [3] S1x1x1 := by decide
  rw [val_main_call0_v2_apply, val_main_call0_v1_apply, val_main_call0_cst_0_apply]
  unfold val_main_call0_v0
  refine (congrArg (FloatOps.maximumf (F := Ideal) (φ := .f32) (Ideal.ofBits .f32 0xFF800000#32))
    (Host.reduce_eq_fold_single (FloatOps.maximumf (F := Ideal) (φ := .f32)) x3 (val_main_call0_cst (F := Ideal))
      reducesTo_S1x1x1x100_S1x1x1_d3 h h_S_ j)).trans ?_
  have hf : (x3 ∘ h.lift j) = fun k : Fin 100 => x3 (ix4 (0 : Fin 1) (0 : Fin 1) (0 : Fin 1) k) :=
    funext fun k => congrArg x3 (funext fun a => by
      match a with
      | ⟨0, _⟩ => exact Fin.ext (Nat.lt_one_iff.mp (j 0).isLt)
      | ⟨1, _⟩ => exact Fin.ext (Nat.lt_one_iff.mp (j 1).isLt)
      | ⟨2, _⟩ => exact Fin.ext (Nat.lt_one_iff.mp (j 2).isLt)
      | ⟨3, _⟩ => rfl)
  unfold lsmMax
  exact congrArg (fun f => FloatOps.maximumf (F := Ideal) (φ := .f32) (Ideal.ofBits .f32 0xFF800000#32)
    (Finset.fold (FloatOps.maximumf (F := Ideal) (φ := .f32)) (Ideal.ofBits .f32 0xFF800000#32) f (Finset.univ : Finset (Fin 100)))) hf

/-- The array minus its broadcast shift, at an index: the shifted entry. -/
theorem shift_apply (x3 : (⟨S1x1x1x100, .f32⟩ : BufTy).Contents (Elt Ideal)) (i : S1x1x1x100.Idx) :
    val_main_call0_v5 (F := Ideal) x3 i
      = lsmShift (fun k => x3 (ix4 (0 : Fin 1) (0 : Fin 1) (0 : Fin 1) k)) (i 3) := by
  rw [val_main_call0_v5_apply, val_main_call0_v4_apply, val_main_call0_v3_apply, max_apply]
  unfold lsmShift
  exact congrArg (fun t => FloatOps.subf (F := Ideal) (φ := .f32) (x3 t)
    (lsmMax fun k => x3 (ix4 (0 : Fin 1) (0 : Fin 1) (0 : Fin 1) k))) (idx_eq i)

/-- The reference's log-softmax, read at an index: the log-softmax of the array's hundred entries at that index's
    last coordinate. -/
theorem ref_lsm (x3 : (⟨S1x1x1x100, .f32⟩ : BufTy).Contents (Elt Ideal)) (i : S1x1x1x100.Idx) :
    val_main_v0 (F := Ideal) x3 i = lsm (fun j => x3 (ix4 (0 : Fin 1) (0 : Fin 1) (0 : Fin 1) j)) (i 3) := by
  rw [val_main_v0_apply, val_main_call0_v10_apply, val_main_call0_v9_apply, val_main_call0_v8_apply,
    val_main_call0_v7_apply, val_main_call0_cst_1_apply, shift_apply]
  unfold lsm
  refine congrArg (fun t => FloatOps.subf (F := Ideal) (φ := .f32)
    (lsmShift (fun k => x3 (ix4 (0 : Fin 1) (0 : Fin 1) (0 : Fin 1) k)) (i 3))
    (FloatOps.hostUnary (F := Ideal) (φ := .f32) .log (Ideal.ofBits .f32 0x00000000#32 + t))) ?_
  refine Finset.sum_congr rfl fun k _ => ?_
  rw [val_main_call0_v6_apply, shift_apply]
  rfl

end Cert.LogSoftmax.Ref

/-! ## The other program, on shape [100] -/

namespace Cert.KernelIdeal

open Facts₀ Facts Idealize.ShloMosaic Idealize.ShloMosaic.ValueIdx Cert.LogSoftmax

/-- The fourteen operations of the function's body composed into one pure function of its argument, in the printed
    order: the maximum over the vector (a reduce from -∞, then the maximum with -∞), broadcast to [1] and to [100];
    the difference; its exponential; the sum (a reduce from 0), broadcast to [1]; the logarithm; broadcast to [100];
    the difference of the two differences. -/
def lsmTerm {F : FTy → Type} [FloatOps F] (y : FVec F S100 .f32) : FVec F S100 .f32 :=
  subf (subf y (broadcastInDim S100 ![0] bcast_S1_S100_0 (broadcastInDim S1 ![] bcast_S_S1 (maximumf (constant S_ .f32 0xFF800000#32) (Host.reduce FloatOps.maximumf y (constant S_ .f32 0xFF800000#32) reducesTo_S100_S_d0 h_S_)))))
       (broadcastInDim S100 ![0] bcast_S1_S100_0 (Host.log (broadcastInDim S1 ![] bcast_S_S1 (Host.reduceAdd (Host.exp (subf y (broadcastInDim S100 ![0] bcast_S1_S100_0 (broadcastInDim S1 ![] bcast_S_S1 (maximumf (constant S_ .f32 0xFF800000#32) (Host.reduce FloatOps.maximumf y (constant S_ .f32 0xFF800000#32) reducesTo_S100_S_d0 h_S_)))))) (constant S_ .f32 0x00000000#32) reducesTo_S100_S_d0 h_S_))))

/-- The index set of a vector of length `n` is its coordinate range. -/
def lsmIdxEquiv1 {n : Nat} : (⟨1, ![n]⟩ : Shape).Idx ≃ Fin n where
  toFun i := i 0
  invFun k := ix1 k
  left_inv i := (eq_ix1 i).symm
  right_inv _ := rfl

/-- A scalar broadcast to shape [1] reads, at its one index, the scalar. -/
theorem lsm_bcast1_apply {α : Type} (z : S_.Idx → α) (q : S1.Idx) :
    broadcastInDim S1 ![] bcast_S_S1 z q = z ix0 :=
  broadcastInDim_apply _ bcast_S_S1 z q ix0 (fun a => a.elim0)

/-- A vector of shape [1] broadcast to shape [100] reads, at every index, its one element. -/
theorem lsm_bcast100_apply {α : Type} (w : S1.Idx → α) (i : S100.Idx) :
    broadcastInDim S100 ![0] bcast_S1_S100_0 w i = w (ix1 (0 : Fin 1)) :=
  broadcastInDim_apply _ bcast_S1_S100_0 w i (ix1 (0 : Fin 1)) (fun a => match a with
    | ⟨0, _⟩ => by show 0 = if (1 : Nat) = 1 then 0 else (i 0).val; rw [if_pos rfl])

/-- The reduce-maximum of the vector from -∞, then the maximum with -∞: the shift of the hundred entries. Every index
    of the vector reduces to the scalar's one index, so the reduce folds over all hundred. -/
theorem lsm_max_apply (y : FVec Ideal S100 .f32) (q : S_.Idx) :
    (maximumf (constant S_ .f32 0xFF800000#32) (Host.reduce FloatOps.maximumf y (constant S_ .f32 0xFF800000#32) reducesTo_S100_S_d0 h_S_) : FVec Ideal S_ .f32) q
      = lsmMax (fun k => y (ix1 k)) := by
  show FloatOps.maximumf (F := Ideal) (φ := .f32) (Ideal.ofBits .f32 0xFF800000#32)
    (Host.reduce FloatOps.maximumf y (constant S_ .f32 0xFF800000#32) reducesTo_S100_S_d0 h_S_ q) = _
  refine (congrArg (FloatOps.maximumf (F := Ideal) (φ := .f32) (Ideal.ofBits .f32 0xFF800000#32))
    (Host.reduce_eq_fold (FloatOps.maximumf (F := Ideal) (φ := .f32)) y (constant S_ .f32 0xFF800000#32)
      reducesTo_S100_S_d0 h_S_ q)).trans ?_
  rw [Finset.filter_true_of_mem fun i _ => funext fun b => b.elim0]
  rw [← Finset.map_univ_equiv (lsmIdxEquiv1 (n := 100)).symm, Finset.fold_map]
  rfl

/-- The reduce-add of a vector of shape [100] from the zero word: that word's value plus the sum of the hundred entries. -/
theorem lsm_sum_apply (e : FVec Ideal S100 .f32) (q : S_.Idx) :
    (Host.reduceAdd e (constant S_ .f32 0x00000000#32) reducesTo_S100_S_d0 h_S_ : FVec Ideal S_ .f32) q
      = Ideal.ofBits .f32 0x00000000#32 + ∑ k : Fin 100, e (ix1 k) := by
  simp only [Host.reduceAdd, Ideal.hostReduceAdd_def]
  rw [Ideal.hostReduceAdd_total reducesTo_S100_S_d0 (fun b => b.elim0)]
  refine congrArg (_ + ·) ?_
  exact (Equiv.sum_comp (lsmIdxEquiv1 (n := 100)).symm e).symm

/-- The vector minus its broadcast shift, at an index: the shifted entry. -/
theorem lsm_shift_apply (y : FVec Ideal S100 .f32) (i : S100.Idx) :
    (subf y (broadcastInDim S100 ![0] bcast_S1_S100_0 (broadcastInDim S1 ![] bcast_S_S1 (maximumf (constant S_ .f32 0xFF800000#32) (Host.reduce FloatOps.maximumf y (constant S_ .f32 0xFF800000#32) reducesTo_S100_S_d0 h_S_)))) : FVec Ideal S100 .f32) i
      = lsmShift (fun k => y (ix1 k)) (i 0) := by
  show FloatOps.subf (F := Ideal) (φ := .f32) (y i) (broadcastInDim S100 ![0] bcast_S1_S100_0 (broadcastInDim S1 ![] bcast_S_S1 (maximumf (constant S_ .f32 0xFF800000#32) (Host.reduce FloatOps.maximumf y (constant S_ .f32 0xFF800000#32) reducesTo_S100_S_d0 h_S_))) i) = _
  rw [lsm_bcast100_apply, lsm_bcast1_apply, lsm_max_apply]
  unfold lsmShift
  exact congrArg (fun t => FloatOps.subf (F := Ideal) (φ := .f32) (y t) (lsmMax fun k => y (ix1 k))) (eq_ix1 i)

/-- The composed body at the ideal values, read at an index: the log-softmax of the vector's hundred entries at that
    index's coordinate. -/
theorem kernel_lsm (y : FVec Ideal S100 .f32) (i : S100.Idx) :
    lsmTerm (F := Ideal) y i = lsm (fun j => y (ix1 j)) (i 0) := by
  unfold lsmTerm
  generalize hs : (subf y (broadcastInDim S100 ![0] bcast_S1_S100_0 (broadcastInDim S1 ![] bcast_S_S1 (maximumf (constant S_ .f32 0xFF800000#32) (Host.reduce FloatOps.maximumf y (constant S_ .f32 0xFF800000#32) reducesTo_S100_S_d0 h_S_)))) : FVec Ideal S100 .f32) = s
  have hsv : ∀ i' : S100.Idx, s i' = lsmShift (fun k => y (ix1 k)) (i' 0) := fun i' => by rw [← hs]; exact lsm_shift_apply y i'
  show FloatOps.subf (F := Ideal) (φ := .f32) (s i)
    (broadcastInDim S100 ![0] bcast_S1_S100_0 (Host.log (broadcastInDim S1 ![] bcast_S_S1 (Host.reduceAdd (Host.exp s) (constant S_ .f32 0x00000000#32) reducesTo_S100_S_d0 h_S_))) i) = _
  rw [lsm_bcast100_apply]
  show FloatOps.subf (F := Ideal) (φ := .f32) (s i)
    (FloatOps.hostUnary (F := Ideal) (φ := .f32) .log (broadcastInDim S1 ![] bcast_S_S1 (Host.reduceAdd (Host.exp s) (constant S_ .f32 0x00000000#32) reducesTo_S100_S_d0 h_S_) (ix1 (0 : Fin 1)))) = _
  rw [lsm_bcast1_apply, lsm_sum_apply, hsv i]
  unfold lsm
  refine congrArg (fun t => FloatOps.subf (F := Ideal) (φ := .f32) (lsmShift (fun k => y (ix1 k)) (i 0))
    (FloatOps.hostUnary (F := Ideal) (φ := .f32) .log (Ideal.ofBits .f32 0x00000000#32 + t))) ?_
  exact Finset.sum_congr rfl fun k _ => congrArg (FloatOps.hostUnary (F := Ideal) (φ := .f32) .exp) (hsv (ix1 k))

end Cert.KernelIdeal
-- ==== Proof.KernelHost.lean ====
/-
  What the host code in front of the kernel launch hands to it, as three functions of the argument arrays.

  * `rowsOf x`: the activations `x : [128,16,16,64]` flattened to one row per position, `[32768, 64]`.
  * `stackedWeights μ σ : [128, 100]`: rows 0..63 hold `-1/2 · σ²` transposed (entry `(c, k)` is `-1/2 · σ(k,c)²`), rows
    64..127 hold `μ · σ²` transposed (entry `(64 + c, k)` is `μ(k,c) · σ(k,c)²`), with `μ, σ : [100, 64]` the means and
    the square-root precisions as matrices.
  * `biasRow μ σ π : [1, 100]`: per component `k` the part of the score that does not depend on the activations,
    `((const + Σ_c log σ(k,c)) + logsoftmax(π)(k)) - 1/2 · Σ_c μ(k,c)² σ(k,c)²`.
  Each is written in the printed program's own operations, in its order, so that the contents of the three staged
  buffers when the launch is reached are these terms by unfolding the host operations one after the other.
-/
import proofs.«102146_j29996051595916_2_alg».proof.Proof.Gen.KernelIdeal.Frame
import proofs.«102146_j29996051595916_2_alg».proof.Proof.LogSoftmax
import Idealize.ShloMosaic.Lib.StableHlo.Run
import Idealize.ShloMosaic.PureOps.Ideal.Laws

noncomputable section

namespace Cert.KernelIdeal

open Facts₀ Facts Idealize.ShloMosaic

variable {F : FTy → Type} [FloatOps F]

/-- The activations, one row of 64 per position. -/
def rowsOf (x : FVec F S128x16x16x64 .f32) : FVec F S32768x64 .f32 :=
  shapeCast S32768x64 x shapeCasts_S128x16x16x64_S32768x64

/-- A `[1,1,1,100,64]` parameter array as a `[100, 64]` matrix. -/
def asMatrix (a : FVec F S1x1x1x100x64 .f32) : FVec F S100x64 .f32 :=
  shapeCast S100x64 a shapeCasts_S1x1x1x100x64_S100x64

/-- The stacked weights: `-1/2 σ²` transposed on top of `μ σ²` transposed. -/
def stackedWeights (μ σ : FVec F S1x1x1x100x64 .f32) : FVec F S128x100 .bf16 :=
  truncf .bf16
    (concatenate S128x100 0
      [⟨S64x100, transpose S64x100 [1, 0]
          (mulf (broadcastInDim S100x64 ![] bcast_S_S100x64 (constant S_ .f32 0xBF000000#32)) (mulf (asMatrix σ) (asMatrix σ)))
          transposes_S100x64_S64x100_1_0⟩,
       ⟨S64x100, transpose S64x100 [1, 0] (mulf (asMatrix μ) (mulf (asMatrix σ) (asMatrix σ))) transposes_S100x64_S64x100_1_0⟩]
      concatenates_S64x100_S64x100_S128x100_d0)
    bitsLt_bf16_f32

/-- The bias row: constant, log-determinant, log mixture weight, minus half the squared, scaled means. -/
def biasRow (μ σ : FVec F S1x1x1x100x64 .f32) (π : FVec F S1x1x1x100 .f32) : FVec F S1x100 .f32 :=
  shapeCast S1x100
    (subf
      (addf
        (addf (broadcastInDim S100 ![] bcast_S_S100 (constant S_ .f32 0xC26B3F8E#32))
          (Host.reduceAdd (Host.log (asMatrix σ)) (constant S_ .f32 0x00000000#32) reducesTo_S100x64_S100_d1 h_S_))
        (lsmTerm (shapeCast S100 π shapeCasts_S1x1x1x100_S100)))
      (mulf (broadcastInDim S100 ![] bcast_S_S100 (constant S_ .f32 0x3F000000#32))
        (Host.reduceAdd (mulf (mulf (asMatrix μ) (asMatrix μ)) (mulf (asMatrix σ) (asMatrix σ))) (constant S_ .f32 0x00000000#32)
          reducesTo_S100x64_S100_d1 h_S_)))
    shapeCasts_S100_S1x100

end Cert.KernelIdeal

namespace Cert.KernelIdeal.Staged

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- When the launch is reached, the buffer staged as the kernel's first operand holds the flattened activations. -/
theorem V_rows (c : Dev nD) :
    (V (F := Ideal) m c main_v0 : S32768x64.Idx → EReal) = rowsOf (F := Ideal) (m ((c : Thread nD τ).loc main_arg0)) := by
  dsimp only [V, V0]
  simp only [hostOps0, hostOps0_1, hostOps0_2, List.flatten_cons, List.flatten_nil, List.append_nil, List.cons_append, List.nil_append]
  after_results_simp
  rfl

set_option maxHeartbeats 4000000 in
/-- The second operand's buffer holds the stacked weights of the means and the square-root precisions. -/
theorem V_weights (c : Dev nD) :
    (V (F := Ideal) m c main_v23 : S128x100.Idx → EReal)
      = stackedWeights (F := Ideal) (m ((c : Thread nD τ).loc main_arg1)) (m ((c : Thread nD τ).loc main_arg2)) := by
  dsimp only [V, V0]
  simp only [hostOps0, hostOps0_1, hostOps0_2, List.flatten_cons, List.flatten_nil, List.append_nil, List.cons_append, List.nil_append]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

end Cert.KernelIdeal.Staged

end
-- ==== Proof.KernelBias.lean ====
/-
  When the launch is reached, the buffer staged as the kernel's third operand holds the bias row: the host operations
  that compute it — among them the called log-softmax, whose operations run in the caller's place — unfolded one after
  the other give exactly the bias row's term.
-/
import proofs.«102146_j29996051595916_2_alg».proof.Proof.KernelHost

noncomputable section

namespace Cert.KernelIdeal.Staged

open Cert.KernelIdeal Cert.KernelIdeal.Gen Idealize.ShloMosaic Idealize.ShloMosaic.TcCoe Idealize.SL.Sem Idealize.ShloMosaic.StableHlo

/-- Contents carried to a buffer's own type and back are the contents. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

variable (m : (ℓ : Loc nD τ sig) → Buf (Elt Ideal) ℓ)

set_option maxHeartbeats 600000 in
/-- The third operand's buffer holds the bias row. -/
theorem V_bias (c : Dev nD) :
    (V (F := Ideal) m c main_v24 : S1x100.Idx → EReal)
      = biasRow (F := Ideal) (m ((c : Thread nD τ).loc main_arg1)) (m ((c : Thread nD τ).loc main_arg2)) (m ((c : Thread nD τ).loc main_arg3)) := by
  dsimp only [V, V0]
  simp only [hostOps0, hostOps0_1, hostOps0_2, List.flatten_cons, List.flatten_nil, List.append_nil, List.cons_append, List.nil_append]
  after_results_simp
  simp only [ofBuf_toBuf]
  unfold biasRow lsmTerm asMatrix
  rfl

end Cert.KernelIdeal.Staged

end
-- ==== Proof.KernelRun.lean ====
/-
  The idealized kernel's run with its result named.

  The generated frame run ends with every array of the launch at what the launch's proof data computes and every other
  buffer as the host operation after the launch leaves it.  That operation reshapes the score array, which after the
  launch is the score function of the three staged arrays; and those hold the flattened activations, the stacked
  weights and the bias row of the argument arrays.  So the program's result is the reshape of the score function of
  those three terms, and the argument arrays end as they started.
-/
import proofs.«102146_j29996051595916_2_alg».proof.Proof.KernelArray
import proofs.«102146_j29996051595916_2_alg».proof.Proof.KernelHost
import proofs.«102146_j29996051595916_2_alg».proof.Proof.KernelBias

noncomputable section

namespace Cert.KernelIdeal.Scores

open Cert.KernelIdeal Cert.KernelIdeal.Gen Cert.KernelIdeal.Staged Idealize.ShloMosaic Idealize.ShloMosaic.TcCoe
open Idealize.SL.Sem Idealize.ShloMosaic.StableHlo

variable (m : (ℓ : Loc nD τ sig) → Buf (Elt Ideal) ℓ) (ρ : Dev nD → PrngReg)

/-- The program's result in terms of the argument arrays. -/
abbrev resultOf (c : Dev nD) : S128x16x16x100.Idx → EReal :=
  shapeCast S128x16x16x100
    (scoreRows (rowsOf (F := Ideal) (m ((c : Thread nD τ).loc main_arg0)))
      (stackedWeights (F := Ideal) (m ((c : Thread nD τ).loc main_arg1)) (m ((c : Thread nD τ).loc main_arg2)))
      (biasRow (F := Ideal) (m ((c : Thread nD τ).loc main_arg1)) (m ((c : Thread nD τ).loc main_arg2)) (m ((c : Thread nD τ).loc main_arg3))))
    shapeCasts_S32768x100_S128x16x16x100

/-- What the host operation after the launch leaves in the result buffer. -/
theorem tail_eq (c : Dev nD) :
    (Pipeline.afterTail₀ cfgs (dats m) 0 (V0 m) [hostOps1] c main_v26 : S128x16x16x100.Idx → EReal) = resultOf m c := by
  have e := (Pipeline.withArrays_arr spec0 launch0.win.arr_inj c (V0 m c) (fun w => (dats m 0 c).arrAt w cfg0.N) 3).trans (final m c)
  unfold Pipeline.afterTail₀
  show StableHlo.after hostOps1 _ (Proc.devRef .tc main_v26) = _
  after_results
  show shapeCast S128x16x16x100
      (Pipeline.withArrays spec0 c (V0 m c) (fun w => (dats m 0 c).arrAt w cfg0.N) (Proc.devRef .tc (Pipeline.arrRef spec0 3)))
      shapeCasts_S32768x100_S128x16x16x100 = _
  rw [e, V_rows, V_weights, V_bias]

/-- Every weakly fair execution of the idealized kernel program terminates with its result at `resultOf` and its
    argument arrays unchanged. -/
theorem run : θ_run defs (onTc (τ := τ) (main (F := Ideal))) ⟨m, fun _ => 0, ρ⟩ fun r => ∀ c : Dev nD,
      r.2.mem ((c.tc : Thread nD τ).loc main_v26) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v26 (Pipeline.mem_restRefs_of main_v26 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Scores

end
-- ==== Proof.StagedRead.lean ====
/-
  The three staged arrays read at an entry, at the ideal instance, in terms of the argument arrays' entries.

  Position `n` of the flattened activations is the position `(b, h, w)` with `n = (16 b + h) 16 + w`; the parameter
  matrices' entry `(k, c)` is the parameter arrays' entry `(0, 0, 0, k, c)`.  With these,
    * the stacked weights at `(c, k)`, `c < 64`, are `-1/2 · σ(k,c)²` (the word `0xBF000000` kept as written), and at
      `(64 + c, k)` they are `μ(k,c) · σ(k,c)²`: transposition swaps the two coordinates, and the two transposed
      matrices sit one above the other;
    * the bias row at `(0, k)` is `((const + (0 + Σ_c log σ(k,c))) + logsoftmax(π)(k)) - 1/2 · (0 + Σ_c μ(k,c)² σ(k,c)²)`,
      a host float sum being its initial value plus the sum over the reduced axis.
-/
import proofs.«102146_j29996051595916_2_alg».proof.Proof.KernelHost
import Idealize.ShloMosaic.Lib.ValueIdx
import Idealize.ShloMosaic.Lib.Pipeline.Value
import Idealize.ShloMosaic.Lib.ValueLayout
import proofs.«102146_j29996051595916_2_alg».proof.Proof.Spec

noncomputable section

open scoped BigOperators

namespace Cert.KernelIdeal.StagedRead

open Cert.KernelIdeal Facts₀ Facts Idealize.ShloMosaic Idealize.ShloMosaic.ValueIdx Cert.GmmSpec Cert.LogSoftmax

/-- The flattened activations at row `n = (16 b + h) 16 + w`. -/
theorem rowsOf_apply (x : FVec Ideal S128x16x16x64 .f32) (n : Fin 32768) (b : Fin 128) (h w : Fin 16) (cc : Fin 64)
    (hn : n.val = (b.val * 16 + h.val) * 16 + w.val) :
    rowsOf (F := Ideal) x (ix2 n cc) = x (ix4 b h w cc) := by
  unfold rowsOf
  refine shapeCast_apply x _ (ix2 n cc) (ix4 b h w cc) ?_
  rw [Shape.rowMajor_val_two, Shape.rowMajor_val_four]
  show ((b.val * 16 + h.val) * 16 + w.val) * 64 + cc.val = n.val * 64 + cc.val
  rw [hn]

/-- A parameter matrix's entry `(k, c)`. -/
theorem asMatrix_apply (a : FVec Ideal S1x1x1x100x64 .f32) (k : Fin 100) (cc : Fin 64) :
    asMatrix (F := Ideal) a (ix2 k cc) = a (ix5 (0 : Fin 1) (0 : Fin 1) (0 : Fin 1) k cc) := by
  unfold asMatrix
  refine shapeCast_apply a _ (ix2 k cc) (ix5 (0 : Fin 1) (0 : Fin 1) (0 : Fin 1) k cc) ?_
  rw [Shape.rowMajor_val_two, Shape.rowMajor_val_five]
  show (((0 * 1 + 0) * 1 + 0) * 100 + k.val) * 64 + cc.val = k.val * 64 + cc.val
  omega

/-- The mixture weights as a vector: entry `j`. -/
theorem asVector_apply (π : FVec Ideal S1x1x1x100 .f32) (j : Fin 100) :
    shapeCast S100 π shapeCasts_S1x1x1x100_S100 (ix1 j) = π (ix4 (0 : Fin 1) (0 : Fin 1) (0 : Fin 1) j) := by
  refine shapeCast_apply π _ (ix1 j) (ix4 (0 : Fin 1) (0 : Fin 1) (0 : Fin 1) j) ?_
  rw [Shape.rowMajor_val_one, Shape.rowMajor_val_four]
  show ((0 * 1 + 0) * 1 + 0) * 100 + j.val = j.val
  omega

/-- A scalar constant broadcast to a matrix, at an entry. -/
theorem splat_matrix_apply (b : BitVec 32) (i : S100x64.Idx) :
    broadcastInDim S100x64 ![] bcast_S_S100x64 (constant (F := Ideal) S_ .f32 b) i = Ideal.ofBits .f32 b :=
  broadcastInDim_apply _ bcast_S_S100x64 (constant (F := Ideal) S_ .f32 b) i ix0 (fun a => a.elim0)

/-- A scalar constant broadcast to a vector, at an entry. -/
theorem splat_vector_apply (b : BitVec 32) (i : S100.Idx) :
    broadcastInDim S100 ![] bcast_S_S100 (constant (F := Ideal) S_ .f32 b) i = Ideal.ofBits .f32 b :=
  broadcastInDim_apply _ bcast_S_S100 (constant (F := Ideal) S_ .f32 b) i ix0 (fun a => a.elim0)

/-- The first 64 rows of the stacked weights. -/
theorem weights_lo (μ σ : FVec Ideal S1x1x1x100x64 .f32) (cc : Fin 64) (k : Fin 100) :
    stackedWeights (F := Ideal) μ σ (ix2 (lo cc) k)
      = Ideal.ofBits .f32 0xBF000000#32
          * (σ (ix5 (0 : Fin 1) (0 : Fin 1) (0 : Fin 1) k cc) * σ (ix5 (0 : Fin 1) (0 : Fin 1) (0 : Fin 1) k cc)) := by
  unfold stackedWeights
  rw [truncf_apply]
  rw [concatenate_pair_apply_left (s₁ := S64x100) (s₂ := S64x100) (0 : Fin 2) _ _ concatenates_S64x100_S64x100_S128x100_d0 (ix2 (lo cc) k) rfl (ix2 cc k)
    (fun q => match q with | ⟨0, _⟩ => rfl | ⟨1, _⟩ => rfl)]
  rw [transpose_ix2_apply, mulf_apply, mulf_apply, splat_matrix_apply, asMatrix_apply]

/-- The last 64 rows. -/
theorem weights_hi (μ σ : FVec Ideal S1x1x1x100x64 .f32) (cc : Fin 64) (k : Fin 100) :
    stackedWeights (F := Ideal) μ σ (ix2 (hi cc) k)
      = μ (ix5 (0 : Fin 1) (0 : Fin 1) (0 : Fin 1) k cc)
          * (σ (ix5 (0 : Fin 1) (0 : Fin 1) (0 : Fin 1) k cc) * σ (ix5 (0 : Fin 1) (0 : Fin 1) (0 : Fin 1) k cc)) := by
  unfold stackedWeights
  rw [truncf_apply]
  rw [concatenate_pair_apply_right (s₁ := S64x100) (s₂ := S64x100) (0 : Fin 2) _ _ concatenates_S64x100_S64x100_S128x100_d0 (ix2 (hi cc) k) rfl rfl (ix2 cc k)
    (fun q hq => match q, hq with
      | ⟨0, _⟩, hq => absurd (Fin.ext rfl) hq
      | ⟨1, _⟩, _ => rfl)
    rfl]
  rw [transpose_ix2_apply, mulf_apply, mulf_apply, asMatrix_apply, asMatrix_apply]

/-- A host float sum over the rows of a `[100, 64]` matrix from the zero word, at row `k`. -/
theorem rowSum_apply (y : FVec Ideal S100x64 .f32) (k : Fin 100) :
    Host.reduceAdd (F := Ideal) y (constant (F := Ideal) S_ .f32 0x00000000#32) reducesTo_S100x64_S100_d1 h_S_ (ix1 k)
      = Ideal.ofBits .f32 0x00000000#32 + ∑ cc : Fin 64, y (ix2 k cc) := by
  simp only [Host.reduceAdd, Ideal.hostReduceAdd_def]
  rw [Ideal.hostReduceAdd_single reducesTo_S100x64_S100_d1 (by decide)]
  refine congrArg (_ + ·) (Finset.sum_congr rfl fun cc _ => ?_)
  exact congrArg y (funext fun a => Fin.ext (by match a with | ⟨0, _⟩ => rfl | ⟨1, _⟩ => rfl))

/-- The bias row at component `k`. -/
theorem bias_apply (μ σ : FVec Ideal S1x1x1x100x64 .f32) (π : FVec Ideal S1x1x1x100 .f32) (k : Fin 100) :
    biasRow (F := Ideal) μ σ π (ix2 (0 : Fin 1) k)
      = ((Ideal.ofBits .f32 0xC26B3F8E#32
            + (Ideal.ofBits .f32 0x00000000#32
                + ∑ cc : Fin 64, FloatOps.hostUnary (F := Ideal) (φ := .f32) .log (σ (ix5 (0 : Fin 1) (0 : Fin 1) (0 : Fin 1) k cc))))
          + lsm (fun j => π (ix4 (0 : Fin 1) (0 : Fin 1) (0 : Fin 1) j)) k)
        - Ideal.ofBits .f32 0x3F000000#32
            * (Ideal.ofBits .f32 0x00000000#32
                + ∑ cc : Fin 64, (μ (ix5 (0 : Fin 1) (0 : Fin 1) (0 : Fin 1) k cc) * μ (ix5 (0 : Fin 1) (0 : Fin 1) (0 : Fin 1) k cc))
                    * (σ (ix5 (0 : Fin 1) (0 : Fin 1) (0 : Fin 1) k cc) * σ (ix5 (0 : Fin 1) (0 : Fin 1) (0 : Fin 1) k cc))) := by
  unfold biasRow
  rw [shapeCast_a_1a_apply, subf_apply, addf_apply, addf_apply, mulf_apply, splat_vector_apply, splat_vector_apply,
    rowSum_apply, rowSum_apply, kernel_lsm]
  congr 1
  · congr 1
    · congr 2
      refine Finset.sum_congr rfl fun cc _ => ?_
      show FloatOps.hostUnary (F := Ideal) (φ := .f32) .log (asMatrix (F := Ideal) σ (ix2 k cc)) = _
      rw [asMatrix_apply]
    · congr 1
      funext j
      exact asVector_apply π j
  · congr 2
    refine Finset.sum_congr rfl fun cc _ => ?_
    rw [mulf_apply, mulf_apply, mulf_apply, asMatrix_apply, asMatrix_apply]

end Cert.KernelIdeal.StagedRead

end
-- ==== Proof.EntryLaw.lean ====
/-
  One entry of the score, in the two groupings.

  For real activations `X_c`, means `M_c` and square-root precisions `S_c` (`c` over the 64 features), and arbitrary
  extended reals `A` (the constant plus the log-determinant) and `P` (the log mixture weight):

    kernel:     ((A + P) - 1/2 (0 + Σ M² S²)) + ( Σ X² (-1/2 S²) + Σ X (M S²) )
    reference:  (A + (-1/2) (0 + Σ (X - M)² S²)) + P

  The three sums of reals are real numbers; they satisfy the expansion of the square; and the rest is a regrouping of
  a sum of extended reals.
-/
import proofs.«102146_j29996051595916_2_alg».proof.Proof.Spec

noncomputable section

open scoped BigOperators

namespace Cert.GmmSpec

theorem entry_law (A P : EReal) (X M S : Fin 64 → ℝ) :
    ((A + P) - ((1 / 2 : ℝ) : EReal) * (0 + ∑ cc, ((M cc : EReal) * (M cc : EReal)) * ((S cc : EReal) * (S cc : EReal))))
      + ((∑ cc, ((X cc : EReal) * (X cc : EReal)) * (((-1 / 2 : ℝ) : EReal) * ((S cc : EReal) * (S cc : EReal))))
         + ∑ cc, (X cc : EReal) * ((M cc : EReal) * ((S cc : EReal) * (S cc : EReal))))
      = (A + ((-1 / 2 : ℝ) : EReal)
            * (0 + ∑ cc, (((X cc : EReal) - (M cc : EReal)) * ((X cc : EReal) - (M cc : EReal))) * ((S cc : EReal) * (S cc : EReal))))
        + P := by
  have ha : ((1 / 2 : ℝ) : EReal) * (0 + ∑ cc, ((M cc : EReal) * (M cc : EReal)) * ((S cc : EReal) * (S cc : EReal)))
      = (((1 / 2 : ℝ) * ∑ cc, (M cc * M cc) * (S cc * S cc) : ℝ) : EReal) := by
    rw [zero_add, EReal.coe_mul, coe_sum]
    simp only [EReal.coe_mul]
  have hb : (∑ cc, ((X cc : EReal) * (X cc : EReal)) * (((-1 / 2 : ℝ) : EReal) * ((S cc : EReal) * (S cc : EReal))))
        + ∑ cc, (X cc : EReal) * ((M cc : EReal) * ((S cc : EReal) * (S cc : EReal)))
      = ((((∑ cc, (X cc * X cc) * ((-1 / 2 : ℝ) * (S cc * S cc))) + ∑ cc, X cc * (M cc * (S cc * S cc))) : ℝ) : EReal) := by
    rw [EReal.coe_add, coe_sum, coe_sum]
    simp only [EReal.coe_mul]
  have hc : ((-1 / 2 : ℝ) : EReal)
        * (0 + ∑ cc, (((X cc : EReal) - (M cc : EReal)) * ((X cc : EReal) - (M cc : EReal))) * ((S cc : EReal) * (S cc : EReal)))
      = (((-1 / 2 : ℝ) * ∑ cc, ((X cc - M cc) * (X cc - M cc)) * (S cc * S cc) : ℝ) : EReal) := by
    rw [zero_add, EReal.coe_mul, coe_sum]
    simp only [EReal.coe_mul, EReal.coe_sub]
  rw [ha, hb, hc]
  exact regroup A P _ _ _ (expand_real X M S)

end Cert.GmmSpec

end
-- ==== Proof.Bridge.lean ====
/-
  The two programs compute the same score, entry by entry, when the activations, the means and the square-root
  precisions are real numbers.

  At the result entry `(b, h, w, k)` — position `(b, h, w)`, mixture component `k` — with `n = (16 b + h) 16 + w`:
    * the reference's value is `((const + (0 + Σ_c log σ(k,c))) + (-1/2)(0 + Σ_c (x(b,h,w,c) - μ(k,c))² σ(k,c)²)) + lsm(π)(k)`;
    * the kernel's is the score function at `(n, k)` of the flattened activations, the stacked weights and the bias row,
      that is `(((const + (0 + Σ_c log σ(k,c))) + lsm(π)(k)) - 1/2 (0 + Σ_c μ(k,c)² σ(k,c)²))
                 + (Σ_c x(b,h,w,c)² (-1/2 σ(k,c)²) + Σ_c x(b,h,w,c) (μ(k,c) σ(k,c)²))`.
  The constant's word is the same on both sides and is never evaluated; `lsm` is the common log-softmax; the words
  `0`, `1/2`, `-1/2` are read as the numbers they denote; and the two values agree by the entry law.  The mixture
  weights and the logarithms may be infinite: they are only added.
-/
import proofs.«102146_j29996051595916_2_alg».proof.Proof.KernelArray
import proofs.«102146_j29996051595916_2_alg».proof.Proof.StagedRead
import proofs.«102146_j29996051595916_2_alg».proof.Proof.EntryLaw
import proofs.«102146_j29996051595916_2_alg».proof.Proof.LogSoftmax
import proofs.«102146_j29996051595916_2_alg».proof.Proof.Gen.ReferenceIdeal.Read

noncomputable section

open scoped BigOperators

namespace Cert.Bridge

open Idealize.ShloMosaic Idealize.ShloMosaic.ValueIdx Cert.GmmSpec Cert.LogSoftmax
open Cert.KernelIdeal Cert.KernelIdeal.Scores Cert.KernelIdeal.StagedRead

/-- The flattened position of `(b, h, w)`. -/
def flat (b : Fin 128) (h w : Fin 16) : Fin 32768 := ⟨(b.val * 16 + h.val) * 16 + w.val, by omega⟩

/-- The result's reshape: entry `(b, h, w, k)` is the score array's entry `(n, k)`. -/
theorem unflatten_apply (G : S32768x100.Idx → EReal) (b : Fin 128) (h w : Fin 16) (k : Fin 100) :
    shapeCast S128x16x16x100 G Cert.KernelIdeal.Gen.shapeCasts_S32768x100_S128x16x16x100 (ix4 b h w k) = G (ix2 (flat b h w) k) := by
  refine shapeCast_apply G _ (ix4 b h w k) (ix2 (flat b h w) k) ?_
  rw [Shape.rowMajor_val_two, Shape.rowMajor_val_four]
  rfl

/-- The kernel's value at `(b, h, w, k)`. -/
theorem kernel_entry (x : FVec Ideal S128x16x16x64 .f32) (μ σ : FVec Ideal S1x1x1x100x64 .f32) (π : FVec Ideal S1x1x1x100 .f32)
    (b : Fin 128) (h w : Fin 16) (k : Fin 100) :
    scoreRows (rowsOf (F := Ideal) x) (stackedWeights (F := Ideal) μ σ) (biasRow (F := Ideal) μ σ π) (ix2 (flat b h w) k)
      = (((Ideal.ofBits .f32 0xC26B3F8E#32
            + (Ideal.ofBits .f32 0x00000000#32
                + ∑ cc : Fin 64, FloatOps.hostUnary (F := Ideal) (φ := .f32) .log (σ (ix5 (0 : Fin 1) (0 : Fin 1) (0 : Fin 1) k cc))))
          + lsm (fun j => π (ix4 (0 : Fin 1) (0 : Fin 1) (0 : Fin 1) j)) k)
        - Ideal.ofBits .f32 0x3F000000#32
            * (Ideal.ofBits .f32 0x00000000#32
                + ∑ cc : Fin 64, (μ (ix5 (0 : Fin 1) (0 : Fin 1) (0 : Fin 1) k cc) * μ (ix5 (0 : Fin 1) (0 : Fin 1) (0 : Fin 1) k cc))
                    * (σ (ix5 (0 : Fin 1) (0 : Fin 1) (0 : Fin 1) k cc) * σ (ix5 (0 : Fin 1) (0 : Fin 1) (0 : Fin 1) k cc))))
        + ((∑ cc : Fin 64, (x (ix4 b h w cc) * x (ix4 b h w cc))
              * (Ideal.ofBits .f32 0xBF000000#32
                  * (σ (ix5 (0 : Fin 1) (0 : Fin 1) (0 : Fin 1) k cc) * σ (ix5 (0 : Fin 1) (0 : Fin 1) (0 : Fin 1) k cc))))
           + ∑ cc : Fin 64, x (ix4 b h w cc)
              * (μ (ix5 (0 : Fin 1) (0 : Fin 1) (0 : Fin 1) k cc)
                  * (σ (ix5 (0 : Fin 1) (0 : Fin 1) (0 : Fin 1) k cc) * σ (ix5 (0 : Fin 1) (0 : Fin 1) (0 : Fin 1) k cc)))) := by
  unfold scoreRows
  show biasRow (F := Ideal) μ σ π (ix2 (0 : Fin 1) k)
      + ((∑ cc : Fin 64, (rowsOf (F := Ideal) x (ix2 (flat b h w) cc) * rowsOf (F := Ideal) x (ix2 (flat b h w) cc))
            * stackedWeights (F := Ideal) μ σ (ix2 (lo cc) k))
         + ∑ cc : Fin 64, rowsOf (F := Ideal) x (ix2 (flat b h w) cc) * stackedWeights (F := Ideal) μ σ (ix2 (hi cc) k)) = _
  rw [bias_apply]
  simp only [rowsOf_apply x (flat b h w) b h w _ rfl, weights_lo, weights_hi]

open Cert.ReferenceIdeal.Read in
/-- The reference's value at `(b, h, w, k)`. -/
theorem ref_entry (x : FVec Ideal S128x16x16x64 .f32) (μ σ : FVec Ideal S1x1x1x100x64 .f32) (π : FVec Ideal S1x1x1x100 .f32)
    (b : Fin 128) (h w : Fin 16) (k : Fin 100) :
    val_main_v19 (F := Ideal) x μ σ π (ix4 b h w k)
      = ((Ideal.ofBits .f32 0xC26B3F8E#32
            + (Ideal.ofBits .f32 0x00000000#32
                + ∑ cc : Fin 64, FloatOps.hostUnary (F := Ideal) (φ := .f32) .log (σ (ix5 (0 : Fin 1) (0 : Fin 1) (0 : Fin 1) k cc))))
          + Ideal.ofBits .f32 0xBF000000#32
              * (Ideal.ofBits .f32 0x00000000#32
                  + ∑ cc : Fin 64, ((x (ix4 b h w cc) - μ (ix5 (0 : Fin 1) (0 : Fin 1) (0 : Fin 1) k cc))
                        * (x (ix4 b h w cc) - μ (ix5 (0 : Fin 1) (0 : Fin 1) (0 : Fin 1) k cc)))
                      * (σ (ix5 (0 : Fin 1) (0 : Fin 1) (0 : Fin 1) k cc) * σ (ix5 (0 : Fin 1) (0 : Fin 1) (0 : Fin 1) k cc))))
        + lsm (fun j => π (ix4 (0 : Fin 1) (0 : Fin 1) (0 : Fin 1) j)) k := by
  have i13 : ∀ cc : Fin 64, idx_main_v13 (idx_main_v16 (ix4 b h w k)) cc = ix5 (0 : Fin 1) (0 : Fin 1) (0 : Fin 1) k cc :=
    fun cc => funext fun a => Fin.ext (by match a with | ⟨0, _⟩ => rfl | ⟨1, _⟩ => rfl | ⟨2, _⟩ => rfl | ⟨3, _⟩ => rfl | ⟨4, _⟩ => rfl)
  have ix : ∀ cc : Fin 64, idx_main_v1 (idx_main_v2 (idx_main_v9 (ix4 b h w k) cc)) = ix4 b h w cc :=
    fun cc => funext fun a => Fin.ext (by match a with | ⟨0, _⟩ => rfl | ⟨1, _⟩ => rfl | ⟨2, _⟩ => rfl | ⟨3, _⟩ => rfl)
  have i3 : ∀ cc : Fin 64, idx_main_v3 (idx_main_v9 (ix4 b h w k) cc) = ix5 (0 : Fin 1) (0 : Fin 1) (0 : Fin 1) k cc :=
    fun cc => funext fun a => Fin.ext (by match a with | ⟨0, _⟩ => rfl | ⟨1, _⟩ => rfl | ⟨2, _⟩ => rfl | ⟨3, _⟩ => rfl | ⟨4, _⟩ => rfl)
  have i7 : ∀ cc : Fin 64, idx_main_v7 (idx_main_v9 (ix4 b h w k) cc) = ix5 (0 : Fin 1) (0 : Fin 1) (0 : Fin 1) k cc :=
    fun cc => funext fun a => Fin.ext (by match a with | ⟨0, _⟩ => rfl | ⟨1, _⟩ => rfl | ⟨2, _⟩ => rfl | ⟨3, _⟩ => rfl | ⟨4, _⟩ => rfl)
  rw [val_main_v19_apply, val_main_v17_apply, val_main_v18_apply, Cert.LogSoftmax.Ref.ref_lsm, val_main_v16_apply,
    val_main_v15_apply, val_main_v14_apply, val_main_cst_2_apply, val_main_v13_apply, val_main_cst_1_apply,
    val_main_v11_apply, val_main_v10_apply, val_main_cst_0_apply, val_main_v9_apply, val_main_cst_apply]
  simp only [val_main_v12_apply, val_main_v8_apply, val_main_v5_apply, val_main_v4_apply, val_main_v2_apply, val_main_v1_apply,
    val_main_v3_apply, val_main_v7_apply, val_main_v6_apply, Ideal.addf_def, Ideal.mulf_def, Ideal.subf_def, Ideal.ofBits_def,
    i13, ix, i3, i7]
  rfl

/-- The two results are one array when the activations, the means and the square-root precisions are real. -/
theorem result_eq (x : FVec Ideal S128x16x16x64 .f32) (μ σ : FVec Ideal S1x1x1x100x64 .f32) (π : FVec Ideal S1x1x1x100 .f32)
    (hx : ∀ i, ∃ r : ℝ, x i = (r : EReal)) (hμ : ∀ i, ∃ r : ℝ, μ i = (r : EReal)) (hσ : ∀ i, ∃ r : ℝ, σ i = (r : EReal)) :
    Cert.ReferenceIdeal.Read.val_main_v19 (F := Ideal) x μ σ π
      = shapeCast S128x16x16x100
          (scoreRows (rowsOf (F := Ideal) x) (stackedWeights (F := Ideal) μ σ) (biasRow (F := Ideal) μ σ π))
          Cert.KernelIdeal.Gen.shapeCasts_S32768x100_S128x16x16x100 := by
  funext i
  obtain ⟨b, h, w, k, rfl⟩ : ∃ (b : Fin 128) (h w : Fin 16) (k : Fin 100), i = ix4 b h w k := ⟨i 0, i 1, i 2, i 3, eq_ix4 i⟩
  rw [unflatten_apply, kernel_entry, ref_entry]
  choose X hX using fun cc : Fin 64 => hx (ix4 b h w cc)
  choose M hM using fun cc : Fin 64 => hμ (ix5 (0 : Fin 1) (0 : Fin 1) (0 : Fin 1) k cc)
  choose S hS using fun cc : Fin 64 => hσ (ix5 (0 : Fin 1) (0 : Fin 1) (0 : Fin 1) k cc)
  simp only [hX, hM, hS, zero_word, half_word, neg_half_word]
  exact (entry_law _ _ X M S).symm

end Cert.Bridge

end
-- ==== Proof.lean ====
/-
  A diagonal Gaussian mixture layer: for every position `(b, h, w)` of a `[128, 16, 16, 64]` activation array and
  every one of 100 mixture components `k`, the score
      const + Σ_c log σ(k,c) - 1/2 Σ_c σ(k,c)² (x(b,h,w,c) - μ(k,c))² + logsoftmax(π)(k).

  The reference computes it as written.  The kernel expands the square: the two sums that depend on the activations
  become ONE contraction of the row `[x², x]` (128 long) with the stacked weights `[-1/2 σ² ; μ σ²]`, done on the
  matrix unit block of 8192 positions by block, and the rest — the constant, the log-determinant, the log mixture
  weight and `-1/2 Σ μ² σ²` — is a bias row computed once by host code in front of the launch; host code after the
  launch reshapes the `[32768, 100]` scores to `[128, 16, 16, 100]`.

  On the extended reals the two agree as soon as the activations, the means and the square-root precisions are real
  numbers, which the precondition (every input finite) gives: the expansion of the square is distributivity, an identity
  of real numbers; everything else (the logarithms, which may be `-∞`, the log-softmax, the constant, whose word is the
  same on both sides and is never evaluated) is only added, and addition of extended reals is commutative and
  associative.  Changes of float format are the identity there.

  The three frame claims are the generated frame runs; nothing was rewritten by the idealization, so `preserves` is
  trivial; `algebraic` puts the kernel's run with its result named beside the reference's generated run and joins the
  two results index by index.
-/
import proofs.«102146_j29996051595916_2_alg».proof.Defs
import proofs.«102146_j29996051595916_2_alg».proof.Proof.Gen.Kernel
import proofs.«102146_j29996051595916_2_alg».proof.Proof.Gen.Kernel.Skeleton
import proofs.«102146_j29996051595916_2_alg».proof.Proof.Gen.Kernel.Launch
import proofs.«102146_j29996051595916_2_alg».proof.Proof.Gen.Kernel.Points
import proofs.«102146_j29996051595916_2_alg».proof.Proof.Gen.Kernel.Frame
import proofs.«102146_j29996051595916_2_alg».proof.Proof.Gen.KernelIdeal
import proofs.«102146_j29996051595916_2_alg».proof.Proof.Gen.KernelIdeal.Skeleton
import proofs.«102146_j29996051595916_2_alg».proof.Proof.Gen.KernelIdeal.Launch
import proofs.«102146_j29996051595916_2_alg».proof.Proof.Gen.KernelIdeal.Points
import proofs.«102146_j29996051595916_2_alg».proof.Proof.Gen.KernelIdeal.Frame
import proofs.«102146_j29996051595916_2_alg».proof.Proof.Gen.ReferenceIdeal
import proofs.«102146_j29996051595916_2_alg».proof.Proof.Gen.ReferenceIdeal.Run
import proofs.«102146_j29996051595916_2_alg».proof.Proof.Gen.ReferenceIdeal.Read
import proofs.«102146_j29996051595916_2_alg».proof.Proof.Gen.Pre_finite_inputs
import proofs.«102146_j29996051595916_2_alg».proof.Proof.FiniteInputs
import proofs.«102146_j29996051595916_2_alg».proof.Proof.KernelRun
import proofs.«102146_j29996051595916_2_alg».proof.Proof.Bridge
import Idealize.ShloMosaic.Adequacy
import Idealize.ShloMosaic.Init

noncomputable section

namespace Cert.Proof

open Idealize.ShloMosaic Idealize.SL.Sem

/-- The printed kernel program runs and keeps its arguments: its generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host code only: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments, every input finite: the kernel ends with its result at the reshaped
    score function of the arguments, the reference at its own composed term of them, and the two are one array. -/
theorem algebraic : Cert.algebraic_KernelIdeal_ReferenceIdeal := by
  intro m ρ m' ρ' hpre hagree
  refine ⟨fun c => Cert.KernelIdeal.Scores.resultOf m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hμ, hσ, -⟩ := Cert.Finite.real_of_finite _ _ _ _ (hpre c)
  rw [Cert.ReferenceIdeal.Read.val_main_v19_eq, (hagree c).1, (hagree c).2.1, (hagree c).2.2.1, (hagree c).2.2.2]
  exact Cert.Bridge.result_eq _ _ _ _ hx hμ hσ

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
